-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S8x1024 : Shape := ⟨2, ![8, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x4096x1024 .f32) (main_arg1 : FVec F S8x4096x1024 .f32) (main_arg2 : FVec F S8x4096 .f32) (main_arg3 : FVec F S8x4096x1024 .f32) (main_arg4 : FVec F S8x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x4096x1024 : Shape := ⟨3, ![8, 4096, 1024]⟩
abbrev S8x4096 : Shape := ⟨2, ![8, 4096]⟩
abbrev S8x1024 : Shape := ⟨2, ![8, 1024]⟩
abbrev S8x1x4096 : Shape := ⟨3, ![8, 1, 4096]⟩
abbrev S8x1x1024 : Shape := ⟨3, ![8, 1, 1024]⟩
abbrev S1x256x1024 : Shape := ⟨3, ![1, 256, 1024]⟩
abbrev S1x4096x1024 : Shape := ⟨3, ![1, 4096, 1024]⟩
abbrev S1x1x4096 : Shape := ⟨3, ![1, 1, 4096]⟩
abbrev S1x1x1024 : Shape := ⟨3, ![1, 1, 1024]⟩
abbrev S256x1024 : Shape := ⟨2, ![256, 1024]⟩
abbrev S1x1x256 : Shape := ⟨3, ![1, 1, 256]⟩
abbrev S1x256 : Shape := ⟨2, ![1, 256]⟩
abbrev S256x256 : Shape := ⟨2, ![256, 256]⟩
abbrev S1x1024 : Shape := ⟨2, ![1, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x4096x1024, .bf16⟩
  | .hbm, ⟨6, _⟩ => ⟨S8x4096x1024, .bf16⟩
  | .hbm, ⟨7, _⟩ => ⟨S8x1x4096, .f32⟩
  | .hbm, ⟨8, _⟩ => ⟨S8x1x1024, .f32⟩
  | .hbm, ⟨9, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v16 : BitVec 32 := Scalar.muli arg9 c256_i32
  v16
def k0_off1 (k0_t1 : Fin k0_t1_loop.trips) : Fin 3 → Nat :=
  let c0_13 : Index := 0#32
  let c0_i32 : BitVec 32 := 0#32
  let c1_i32 : BitVec 32 := 1#32
  let arg9 : BitVec 32 := Scf.iv c0_i32 c1_i32 k0_t1
  let c256_i32 : BitVec 32 := 256#32
  let v16 : BitVec 32 := Scalar.muli arg9 c256_i32
  let v17 : BitVec 32 := v16
  let v18 : Index := Scalar.indexCast v17
  let c0_14 : Index := 0#32
  ![0, v18.toNat, 0]
def k0_off2 (k0_t1 : Fin k0_t1_loop.trips) : Fin 3 → Nat :=
  let c0_15 : Index := 0#32
  let c0_16 : Index := 0#32
  let c0_i32 : BitVec 32 := 0#32
  let c1_i32 : BitVec 32 := 1#32
  let arg9 : BitVec 32 := Scf.iv c0_i32 c1_i32 k0_t1
  let c256_i32 : BitVec 32 := 256#32
  let v16 : BitVec 32 := Scalar.muli arg9 c256_i32
  let v17 : BitVec 32 := v16
  let v21 : Index := Scalar.indexCast v17
  ![0, 0, v21.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S1x1x256 : 0 < S1x1x256.numel
  shapeCasts_S1x1x256_S1x256 : S1x1x256.ShapeCasts S1x256
  broadcasts_S1x256_S256x256 : S1x256.Broadcasts S256x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S256x1024_S1x256x1024 : S256x1024.ShapeCasts S1x256x1024
  dot_S256x1024_S256x1024_S256x256_1_1_0_0_n_n_wf : DotDims.WF S256x1024 S256x1024 S256x256 [1] [1] [0] [0] [] []
  dot_S256x256_S256x1024_S256x1024_1_0_0_1_n_n_wf : DotDims.WF S256x256 S256x1024 S256x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x1024.size a ≤ S1x4096x1024.size a
  k0_off2_inb : ∀ k0_t1 : Fin k0_t1_loop.trips, ∀ a, (k0_off2 k0_t1) a + S1x1x256.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .f32 = 32 ∨ (Rect.block (s := S8x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S8x4096x1024.size a
  hwx0_1 : ∀ i : grid0.Coords, EltTy.bits .bf16 = 32 ∨ (Rect.block (s := S8x4096x1024) S1x4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x4096x1024.size a
  hwx0_5 : ∀ i : grid0.Coords, EltTy.bits .f32 = 32 ∨ (Rect.block (s := S8x4096x1024) S1x256x1024.size (cc0_transform_5 i) (hinb0_5 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8x1024 : Shape := ⟨2, ![8, 1024]⟩
abbrev S8x4096x4096 : Shape := ⟨3, ![8, 4096, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x4096x4096, .f32⟩
  | .hbm, ⟨6, _⟩ => ⟨S8x1x4096, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1024, .f32⟩
  | .hbm, ⟨13, _⟩ => ⟨S8x1x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  dot_S8x4096x1024_S8x4096x1024_S8x4096x4096_2_2_1_1_0_0_wf : DotDims.WF S8x4096x1024 S8x4096x1024 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x4096x1024_S8x4096x4096_2_2_1_1_0_0 : DotDims S8x4096x1024 S8x4096x1024 S8x4096x4096 where
  lhsContracting := [2]
  rhsContracting := [2]
  lhsNonContracting := [1]
  rhsNonContracting := [1]
  lhsBatch := [0]
  rhsBatch := [0]
  wf := dot_S8x4096x1024_S8x4096x1024_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibWholeStore.lean ====
/-
  A buffer read after a store that covers it whole.

  A store through the unit rectangle at zero offsets of the buffer's own extents overwrites every element; made last
  in a list of stores, it is what a read of the buffer returns, whatever the earlier stores and the contents before
  them. (For a scratch accumulator that a kernel body stores whole and loads back, trip after trip.)
-/
import Idealize.ShloMosaic.Lib.Pipeline.Value

noncomputable section

namespace WholeStore

open Idealize.ShloMosaic Idealize.SL.Sem

/-- After a store that covers the whole buffer, made last, the buffer reads as the stored value, whatever the earlier
    stores and the contents before them. -/
theorem read_after_whole_store {Val : EltTy → Type} [∀ e, Nonempty (Val e)] {sig : RefSig} {κ : Kind} {sp : Space}
    {S : Shape} {e : EltTy} (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- The zero offsets of a rank-2 buffer, as the constant function. -/
theorem zero_off2 : (![0, 0] : Fin 2 → ℕ) = fun _ => 0 := by
  funext a; match a with | ⟨0, _⟩ => rfl | ⟨1, _⟩ => rfl

/-- The zero offsets of a rank-3 buffer, as the constant function. -/
theorem zero_off3 : (![0, 0, 0] : Fin 3 → ℕ) = fun _ => 0 := by
  funext a; match a with | ⟨0, _⟩ => rfl | ⟨1, _⟩ => rfl | ⟨2, _⟩ => rfl

end WholeStore

end
-- ==== Proof.Accumulator.lean ====
/-
  What one tile's body leaves in its output block, for any float values.

  The body zeroes its accumulator, then makes sixteen trips; trip `k` reads rows `256 k … 256 k + 255` of the two
  weight blocks and lanes `256 k … 256 k + 255` of the first bias, and replaces the accumulator `a` by
  `step_k(a)` (the trip's one stored value, as a function of what the trip finds in the accumulator). After the
  trips it stores the accumulator plus the second bias into the output block. So the block holds

      finish (step_15 (… (step_1 (step_0 zero)) …)),

  stated here as the recursion `accAfter` and read off the run's recorded stores: each store covers its whole
  buffer, so a read after it returns the stored value whatever was there before, and the stores of the trips
  before `k` compose one after the other.
-/
import proofs.«146546_j4939212391171_2_alg».proof.Proof.Gen.KernelIdeal.Frame
import Idealize.ShloMosaic.Lib.Pipeline.Value
import proofs.«146546_j4939212391171_2_alg».proof.Proof.LibWholeStore

set_option maxRecDepth 16384

noncomputable section

namespace Cert.KernelIdeal.Tile

open Cert.KernelIdeal Cert.KernelIdeal.Gen
open Idealize.ShloMosaic Idealize.ShloMosaic.TcCoe Idealize.SL.Sem WholeStore

variable {F : FTy → Type} [FloatOps F]

/-- The accumulator after the first `k` trips, as a function of the tile's input blocks: zero, then one trip's
    stored value after the other, trip `k` reading the weight rows and bias lanes at its offsets. -/
def accAfter (x0 : Vec F S1x256x1024 .f32) (x1 : Vec F S1x4096x1024 .bf16) (x2 : Vec F S1x1x4096 .f32)
    (x3 : Vec F S1x4096x1024 .bf16) : ℕ → FVec F S256x1024 .f32
  | 0 => k0_pay1
  | k + 1 =>
    if h : k < k0_t1_loop.trips then
      k0_pay2 x0
        (View.ld x1 (Rect.unit (s := S1x4096x1024) (k0_off1 ⟨k, h⟩) S1x256x1024.size (Gen.k0_off1_inb ⟨k, h⟩)))
        (View.ld x2 (Rect.unit (s := S1x1x4096) (k0_off2 ⟨k, h⟩) S1x1x256.size (Gen.k0_off2_inb ⟨k, h⟩)))
        (View.ld x3 (Rect.unit (s := S1x4096x1024) (k0_off1 ⟨k, h⟩) S1x256x1024.size (Gen.k0_off1_inb ⟨k, h⟩)))
        (accAfter x0 x1 x2 x3 k)
    else accAfter x0 x1 x2 x3 k

theorem accAfter_succ (x0 : Vec F S1x256x1024 .f32) (x1 : Vec F S1x4096x1024 .bf16) (x2 : Vec F S1x1x4096 .f32)
    (x3 : Vec F S1x4096x1024 .bf16) (k : Fin k0_t1_loop.trips) :
    accAfter x0 x1 x2 x3 (k.val + 1) = k0_pay2 x0
        (View.ld x1 (Rect.unit (s := S1x4096x1024) (k0_off1 k) S1x256x1024.size (Gen.k0_off1_inb k)))
        (View.ld x2 (Rect.unit (s := S1x1x4096) (k0_off2 k) S1x1x256.size (Gen.k0_off2_inb k)))
        (View.ld x3 (Rect.unit (s := S1x4096x1024) (k0_off1 k) S1x256x1024.size (Gen.k0_off1_inb k)))
        (accAfter x0 x1 x2 x3 k.val) := by
  rw [accAfter]; exact dif_pos k.isLt

section

variable (c : Dev nD) (i : grid0.Coords) (arg2 : Memref sig .tc .vmem S1x256x1024 .f32) (harg2 : arg2.IsWhole) (arg3 : Memref sig .tc .vmem S1x4096x1024 .bf16) (harg3 : arg3.IsWhole) (arg4 : Memref sig .tc .vmem S1x1x4096 .f32) (harg4 : arg4.IsWhole) (arg5 : Memref sig .tc .vmem S1x4096x1024 .bf16) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .f32) (harg8 : arg8.IsWhole)
    (x0 : Vec F S1x256x1024 .f32) (x1 : Vec F S1x4096x1024 .bf16) (x2 : Vec F S1x1x4096 .f32) (x3 : Vec F S1x4096x1024 .bf16) (x4 : Vec F S1x1x1024 .f32)

/-- The accumulator buffer, read after the zeroing store and the stores of the trips before `k`, holds `accAfter k`. -/
theorem read_acc (G : BufTy.Contents (Elt F) arg8.view.ty)
    (hG : arg8.view.read (Elt F) G = (k0_pay1 : FVec F S256x1024 .f32)) (k : ℕ) (hk : k ≤ k0_t1_loop.trips) :
    arg8.view.read (Elt F) (arg8.view.writes (Elt F) G
      (pb_k0_t1 (F := F) Variants.none c none i arg2 harg2 arg3 harg3 arg4 harg4 arg5 harg5 arg6 harg6 arg7 harg7 arg8 harg8
        x0 (harg3.unread x1) (harg4.unread x2) (harg5.unread x3) G k))
      = accAfter x0 x1 x2 x3 k := by
  induction k with
  | zero => rw [pb_k0_t1.eq_1, View.writes_nil]; exact hG
  | succ k ih =>
    have hk' : k < k0_t1_loop.trips := hk
    have ih' := ih (Nat.le_of_lt hk')
    have hs := pb_k0_t1_succ (F := F) Variants.none c none i arg2 harg2 arg3 harg3 arg4 harg4 arg5 harg5 arg6 harg6 arg7 harg7 arg8 harg8
        x0 (harg3.unread x1) (harg4.unread x2) (harg5.unread x3) G ⟨k, hk'⟩
    have ha := accAfter_succ x0 x1 x2 x3 ⟨k, hk'⟩
    dsimp only at hs ha
    rw [hs, ha, View.writes_append]
    unfold tripL_k0_t1 trip_k0_t1
    dsimp only
    refine (read_after_whole_store arg8.view _ zero_off2 _ _ _).trans ?_
    simp only [View.readAt_eq_ld, Memref.IsWhole.read_unread, ih']
    rw [View.ld_unit_zero (S := S256x1024) zero_off2]

/-- WHAT THE TILE'S BODY LEAVES in its output block: the last store's value, the accumulator after all the trips
    plus the second bias. -/
theorem tile_out :
    out0_A_5 c i arg2 harg2 arg3 harg3 arg4 harg4 arg5 harg5 arg6 harg6 arg7 harg7 arg8 harg8 x0 x1 x2 x3 x4
      = k0_pay3 (accAfter x0 x1 x2 x3 k0_t1_loop.trips) x4 := by
  unfold out0_A_5 kernelRun0_A
  dsimp only
  refine (read_after_whole_store VO0_5 _ zero_off3 _ _ _).trans ?_
  unfold kernelRun0_A.sl.v8
  simp only [View.readAt_eq_ld, Memref.IsWhole.read_unread]
  rw [View.ld_unit_zero (S := S1x256x1024) zero_off3, View.ld_unit_zero (S := S1x1x1024) zero_off3,
    View.ld_unit_zero (S := S256x1024) zero_off2, View.writes_append]
  refine congrArg (fun a => k0_pay3 a x4) ?_
  refine read_acc c i arg2 harg2 arg3 harg3 arg4 harg4 arg5 harg5 arg6 harg6 arg7 harg7 arg8 harg8 x0 x1 x2 x3 _ ?_ _ (Nat.le_refl _)
  unfold kernelRun0_A.sl.HS0_1
  exact read_after_whole_store arg8.view _ zero_off2 _ _ _

end

end Cert.KernelIdeal.Tile

end
-- ==== Proof.Payloads.lean ====
/-
  The three values the kernel body stores, read at an index over the extended reals. The first is the zero splat.
  The second is the accumulator plus h ⬝ w2, where h(r, j) = max (Σ_m x(r, m) · w1(j, m) + b1(j)) 0: the first product
  contracts the two operands' second axes and the second contracts h's second axis with w2's first, each into a zero
  accumulator, so each is the plain sum over its one contraction coordinate; the casts only drop a leading unit axis,
  the bias row is laid along every token row, and a change of float format is the identity. The third is the
  accumulator plus the second bias row laid along every row, with a leading unit axis added.
-/
import proofs.«146546_j4939212391171_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The first product: both operands contract their second axis -/

theorem lhs1_0 (i : S256x256.Idx) (q : dot_S256x1024_S256x1024_S256x256_1_1_0_0_n_n.contr.Idx) :
    (dot_S256x1024_S256x1024_S256x256_1_1_0_0_n_n.lhsIdx i q 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem lhs1_1 (i : S256x256.Idx) (q : dot_S256x1024_S256x1024_S256x256_1_1_0_0_n_n.contr.Idx) :
    (dot_S256x1024_S256x1024_S256x256_1_1_0_0_n_n.lhsIdx i q 1).val = (q ⟨0, by decide⟩).val :=
  dot_S256x1024_S256x1024_S256x256_1_1_0_0_n_n.lhsIdx_val_of_single rfl i q
theorem rhs1_0 (i : S256x256.Idx) (q : dot_S256x1024_S256x1024_S256x256_1_1_0_0_n_n.contr.Idx) :
    (dot_S256x1024_S256x1024_S256x256_1_1_0_0_n_n.rhsIdx i q 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem rhs1_1 (i : S256x256.Idx) (q : dot_S256x1024_S256x1024_S256x256_1_1_0_0_n_n.contr.Idx) :
    (dot_S256x1024_S256x1024_S256x256_1_1_0_0_n_n.rhsIdx i q 1).val = (q ⟨0, by decide⟩).val :=
  dot_S256x1024_S256x1024_S256x256_1_1_0_0_n_n.rhsIdx_val_of_single rfl i q

/-- The first product into the zero accumulator, at (r, j): the sum over m of x(r, m) · w(j, m). -/
theorem matmul1_apply (x w : FVec Ideal S256x1024 .bf16) (r j : Fin 256) :
    matmul (F := Ideal) dot_S256x1024_S256x1024_S256x256_1_1_0_0_n_n none x w (constant (F := Ideal) S256x256 .f32 0x00000000#32) (ix2 r j)
      = ∑ m : Fin 1024, x (ix2 r m) * w (ix2 j m) := by
  refine (Ideal.matmul_constant_zero_apply dot_S256x1024_S256x1024_S256x256_1_1_0_0_n_n none x w (ix2 r j)).trans ?_
  rw [← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 r j) ((contrEquiv1 dot_S256x1024_S256x1024_S256x256_1_1_0_0_n_n 1024 rfl rfl).symm k) = ix2 r k := funext fun a => Fin.ext (by
    match a with
    | ⟨0, _⟩ => exact lhs1_0 _ _
    | ⟨1, _⟩ => exact (lhs1_1 _ _).trans hk)
  have er : dot_S256x1024_S256x1024_S256x256_1_1_0_0_n_n.rhsIdx (ix2 r j) ((contrEquiv1 dot_S256x1024_S256x1024_S256x256_1_1_0_0_n_n 1024 rfl rfl).symm k) = ix2 j k := funext fun a => Fin.ext (by
    match a with
    | ⟨0, _⟩ => exact rhs1_0 _ _
    | ⟨1, _⟩ => exact (rhs1_1 _ _).trans hk)
  rw [el, er]

/-! ## The second product: the left operand's second axis against the right operand's first -/

theorem lhs2_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs2_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhs2_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhs2_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The second product into the zero accumulator, at (r, o): the sum over j of h(r, j) · w(j, o). -/
theorem matmul2_apply (h : FVec Ideal S256x256 .bf16) (w : FVec Ideal S256x1024 .bf16) (r : Fin 256) (o : Fin 1024) :
    matmul (F := Ideal) dot_S256x256_S256x1024_S256x1024_1_0_0_1_n_n none h w (constant (F := Ideal) S256x1024 .f32 0x00000000#32) (ix2 r o)
      = ∑ j : Fin 256, h (ix2 r j) * w (ix2 j o) := by
  refine (Ideal.matmul_constant_zero_apply dot_S256x256_S256x1024_S256x1024_1_0_0_1_n_n none h w (ix2 r o)).trans ?_
  rw [← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 r o) ((contrEquiv1 dot_S256x256_S256x1024_S256x1024_1_0_0_1_n_n 256 rfl rfl).symm k) = ix2 r k := funext fun a => Fin.ext (by
    match a with
    | ⟨0, _⟩ => exact lhs2_0 _ _
    | ⟨1, _⟩ => exact (lhs2_1 _ _).trans hk)
  have er : dot_S256x256_S256x1024_S256x1024_1_0_0_1_n_n.rhsIdx (ix2 r o) ((contrEquiv1 dot_S256x256_S256x1024_S256x1024_1_0_0_1_n_n 256 rfl rfl).symm k) = ix2 k o := funext fun a => Fin.ext (by
    match a with
    | ⟨0, _⟩ => exact (rhs2_0 _ _).trans hk
    | ⟨1, _⟩ => exact rhs2_1 _ _)
  rw [el, er]

/-! ## The three stored values -/

/-- The first stored value is the zero splat. -/
theorem pay1_apply (j : S256x1024.Idx) : (k0_pay1 (F := Ideal)) j = 0 := by
  unfold Gen.k0_pay1
  rw [shapeCast_self]
  exact Ideal.ofBits_zero_f32

/-- The hidden block at (r, j): max (Σ_m x(r, m) · w1(j, m) + b1(j)) 0. -/
theorem hidden_apply (v0 : Vec Ideal S1x256x1024 .f32) (v19 : Vec Ideal S1x256x1024 .bf16) (v22 : Vec Ideal S1x1x256 .f32)
    (r j : Fin 256) :
    maximumf (F := Ideal)
        (addf (F := Ideal)
          (matmul (F := Ideal) dot_S256x1024_S256x1024_S256x256_1_1_0_0_n_n none
            (truncf .bf16 (shapeCast S256x1024 v0 shapeCasts_S1x256x1024_S256x1024 : FVec Ideal S256x1024 .f32) bitsLt_bf16_f32)
            (shapeCast S256x1024 v19 shapeCasts_S1x256x1024_S256x1024 : FVec Ideal S256x1024 .bf16)
            (constant (F := Ideal) S256x256 .f32 0x00000000#32))
          (broadcastTo S256x256 (shapeCast S1x256 v22 shapeCasts_S1x1x256_S1x256 : FVec Ideal S1x256 .f32) broadcasts_S1x256_S256x256))
        (broadcast S256x256 (Scalar.ofBits (F := Ideal) .f32 0x00000000#32)) (ix2 r j)
      = max ((∑ m : Fin 1024, v0 (ix3 (0 : Fin 1) r m) * v19 (ix3 (0 : Fin 1) j m)) + v22 (ix3 (0 : Fin 1) (0 : Fin 1) j)) 0 := by
  show max (_ + _) _ = _
  have e1 := matmul1_apply
    (truncf .bf16 (shapeCast S256x1024 v0 shapeCasts_S1x256x1024_S256x1024 : FVec Ideal S256x1024 .f32) bitsLt_bf16_f32)
    (shapeCast S256x1024 v19 shapeCasts_S1x256x1024_S256x1024 : FVec Ideal S256x1024 .bf16) r j
  have e2 : broadcastTo S256x256 (shapeCast S1x256 v22 shapeCasts_S1x1x256_S1x256 : FVec Ideal S1x256 .f32) broadcasts_S1x256_S256x256 (ix2 r j)
      = v22 (ix3 (0 : Fin 1) (0 : Fin 1) j) :=
    (broadcastTo_1b_ab_apply _ _ r j).trans (shapeCast_1ab_ab_apply v22 _ (0 : Fin 1) j)
  have e3 : (Scalar.ofBits (F := Ideal) .f32 0x00000000#32 : EReal) = 0 := Ideal.ofBits_zero_f32
  have e4 : (∑ m : Fin 1024,
        (truncf .bf16 (shapeCast S256x1024 v0 shapeCasts_S1x256x1024_S256x1024 : FVec Ideal S256x1024 .f32) bitsLt_bf16_f32 : FVec Ideal S256x1024 .bf16) (ix2 r m)
          * (shapeCast S256x1024 v19 shapeCasts_S1x256x1024_S256x1024 : FVec Ideal S256x1024 .bf16) (ix2 j m))
      = ∑ m : Fin 1024, v0 (ix3 (0 : Fin 1) r m) * v19 (ix3 (0 : Fin 1) j m) :=
    Finset.sum_congr rfl fun m _ =>
      congrArg₂ (· * ·) (shapeCast_1ab_ab_apply v0 _ r m) (shapeCast_1ab_ab_apply v19 _ j m)
  exact congrArg₂ max (congrArg₂ (· + ·) (e1.trans e4) e2) e3

/-- The second stored value at (r, o): the accumulator there plus the sum over the block's hidden units j of
    h(r, j) · w2(j, o). -/
theorem pay2_apply (v0 : Vec Ideal S1x256x1024 .f32) (v19 : Vec Ideal S1x256x1024 .bf16) (v22 : Vec Ideal S1x1x256 .f32)
    (v31 : Vec Ideal S1x256x1024 .bf16) (v34 : Vec Ideal S256x1024 .f32) (r : Fin 256) (o : Fin 1024) :
    k0_pay2 (F := Ideal) v0 v19 v22 v31 v34 (ix2 r o)
      = v34 (ix2 r o) + ∑ j : Fin 256,
          max ((∑ m : Fin 1024, v0 (ix3 (0 : Fin 1) r m) * v19 (ix3 (0 : Fin 1) j m)) + v22 (ix3 (0 : Fin 1) (0 : Fin 1) j)) 0
            * v31 (ix3 (0 : Fin 1) j o) := by
  unfold Gen.k0_pay2
  refine (congrFun (shapeCast_self _ _) _).trans ?_
  show v34 (ix2 r o) + _ = _
  refine congrArg (v34 (ix2 r o) + ·) ?_
  refine (matmul2_apply _ _ r o).trans ?_
  refine Finset.sum_congr rfl fun j _ => ?_
  exact congrArg₂ (· * ·) (hidden_apply v0 v19 v22 r j) (shapeCast_1ab_ab_apply v31 _ j o)

/-- The third stored value at (u, r, o): the accumulator at (r, o) plus the second bias at o. -/
theorem pay3_apply (v8 : Vec Ideal S256x1024 .f32) (v9 : Vec Ideal S1x1x1024 .f32) (u : Fin 1) (r : Fin 256) (o : Fin 1024) :
    k0_pay3 (F := Ideal) v8 v9 (ix3 u r o) = v8 (ix2 r o) + v9 (ix3 (0 : Fin 1) (0 : Fin 1) o) := by
  unfold Gen.k0_pay3
  refine (shapeCast_ab_1ab_apply _ _ u r o).trans ?_
  show v8 (ix2 r o) + _ = _
  refine congrArg (v8 (ix2 r o) + ·) ?_
  exact (broadcastTo_1b_ab_apply _ _ r o).trans (shapeCast_1ab_ab_apply v9 _ (0 : Fin 1) o)

end Cert.KernelIdeal.Tile

end
-- ==== Proof.LibBlockAcc.lean ====
/-
  An accumulator fed one block of consecutive positions at a time.

  In a commutative additive monoid, a sum over `a * b` consecutive positions is the sum over `a` blocks of the sums
  over each block's `b` positions; an accumulator that starts at zero and receives block `k`'s sum at step `k`
  therefore holds, after `k` steps, the sum over the first `k * b` positions, and after all the steps the whole sum.
  Only commutativity and associativity of addition are used, so this holds for the extended reals with their
  infinities. (For a kernel that walks a contraction axis in blocks, in a loop or over a grid axis, accumulating each
  block's partial product, against a reference that contracts the whole axis at once.)
-/
import Mathlib

namespace BlockAcc

/-- A sum over `a * b` consecutive positions is the sum over `a` blocks of the sums over each block's `b` positions. -/
theorem sum_range_blocks {M : Type*} [AddCommMonoid M] (f : ℕ → M) (a b : ℕ) :
    ∑ n ∈ Finset.range (a * b), f n = ∑ i ∈ Finset.range a, ∑ j ∈ Finset.range b, f (i * b + j) := by
  induction a with
  | zero => simp
  | succ a ih =>
    rw [Nat.succ_mul, Finset.sum_range_add, ih, Finset.sum_range_succ]

/-- The accumulator after the first `k` blocks of `b` positions, started at zero and fed one block's sum at a time:
    `acc 0 = 0`, `acc (k + 1) = acc k + Σ_{j < b} f (k * b + j)`. -/
def blockAcc {M : Type*} [AddCommMonoid M] (f : ℕ → M) (b : ℕ) : ℕ → M
  | 0 => 0
  | k + 1 => blockAcc f b k + ∑ j ∈ Finset.range b, f (k * b + j)

/-- After `k` blocks the accumulator is the sum over the first `k * b` positions. -/
theorem blockAcc_eq {M : Type*} [AddCommMonoid M] (f : ℕ → M) (b k : ℕ) :
    blockAcc f b k = ∑ n ∈ Finset.range (k * b), f n := by
  induction k with
  | zero => simp [blockAcc]
  | succ k ih => rw [blockAcc, ih, Nat.succ_mul, Finset.sum_range_add]

/-- After all `a` blocks the accumulator is the sum over all `N = a * b` positions, as a sum over `Fin N`. -/
theorem blockAcc_all {M : Type*} [AddCommMonoid M] (f : ℕ → M) (b a N : ℕ) (hN : a * b = N) (g : Fin N → M)
    (hf : ∀ h : Fin N, f h.val = g h) : blockAcc f b a = ∑ h : Fin N, g h := by
  subst hN
  rw [blockAcc_eq, Finset.sum_range]
  exact Finset.sum_congr rfl fun h _ => hf h

end BlockAcc
-- ==== Proof.TileValue.lean ====
/-
  One tile's output block over the extended reals, as a function of the tile's five input blocks.

  For the tile's token row r < 256 and output feature o < 1024, hidden unit h < 4096 contributes

      term(h) = max (Σ_m x(r, m) · w1(h, m) + b1(h)) 0 · w2(h, o).

  Trip k of the body's loop reads rows 256 k … 256 k + 255 of the weight blocks, so it adds
  Σ_{j<256} term(256 k + j) to the accumulator; the accumulator starts at zero, so after k trips it is the sum of
  the first k blocks of terms, and after all sixteen the sum over all 4096 hidden units. The stored block is that
  sum plus the second bias.
-/
import proofs.«146546_j4939212391171_2_alg».proof.Proof.Accumulator
import proofs.«146546_j4939212391171_2_alg».proof.Proof.Payloads
import proofs.«146546_j4939212391171_2_alg».proof.Proof.LibBlockAcc

set_option maxRecDepth 16384

noncomputable section

namespace Cert.KernelIdeal.Tile

open Cert.KernelIdeal Cert.KernelIdeal.Gen
open Idealize.ShloMosaic Idealize.ShloMosaic.TcCoe Idealize.ShloMosaic.ValueIdx Idealize.SL.Sem

/-- The loop makes sixteen trips. -/
theorem trips_eq : k0_t1_loop.trips = 16 := by decide

/-- Hidden unit `h`'s contribution to the tile's entry (r, o), from the tile's input blocks. -/
def term (x0 : Vec Ideal S1x256x1024 .f32) (x1 : Vec Ideal S1x4096x1024 .bf16) (x2 : Vec Ideal S1x1x4096 .f32)
    (x3 : Vec Ideal S1x4096x1024 .bf16) (r : Fin 256) (o : Fin 1024) (h : Fin 4096) : EReal :=
  max ((∑ m : Fin 1024, x0 (ix3 (0 : Fin 1) r m) * x1 (ix3 (0 : Fin 1) h m)) + x2 (ix3 (0 : Fin 1) (0 : Fin 1) h)) 0
    * x3 (ix3 (0 : Fin 1) h o)

/-- The same over the naturals (zero past the last hidden unit), for sums over consecutive blocks. -/
def termN (x0 : Vec Ideal S1x256x1024 .f32) (x1 : Vec Ideal S1x4096x1024 .bf16) (x2 : Vec Ideal S1x1x4096 .f32)
    (x3 : Vec Ideal S1x4096x1024 .bf16) (r : Fin 256) (o : Fin 1024) (n : ℕ) : EReal :=
  if h : n < 4096 then term x0 x1 x2 x3 r o ⟨n, h⟩ else 0

/-- Trip `k`'s slice of a weight block, at (0, j, c), is the block at row `256 k + j`. -/
theorem weight_rows (x : Vec Ideal S1x4096x1024 .bf16) (k : Fin k0_t1_loop.trips) (j : Fin 256) (cc : Fin 1024)
    (hlt : k.val * 256 + j.val < 4096) :
    View.ld x (Rect.unit (s := S1x4096x1024) (k0_off1 k) S1x256x1024.size (Gen.k0_off1_inb k)) (ix3 (0 : Fin 1) j cc)
      = x (ix3 (0 : Fin 1) (⟨k.val * 256 + j.val, hlt⟩ : Fin 4096) cc) := by
  refine congrArg x (funext fun a => Fin.ext ?_)
  have e := k0_off1_eq k
  match a with
  | ⟨0, _⟩ => show k0_off1 k 0 + 1 * 0 = 0; rw [e]; rfl
  | ⟨1, _⟩ => show k0_off1 k 1 + 1 * j.val = k.val * 256 + j.val; rw [e]; show 256 * k.val + 1 * j.val = _; omega
  | ⟨2, _⟩ => show k0_off1 k 2 + 1 * cc.val = cc.val; rw [e]; show 0 + 1 * cc.val = _; omega

/-- Trip `k`'s slice of the first bias block, at (0, 0, j), is the block at lane `256 k + j`. -/
theorem bias_lanes (x : Vec Ideal S1x1x4096 .f32) (k : Fin k0_t1_loop.trips) (j : Fin 256)
    (hlt : k.val * 256 + j.val < 4096) :
    View.ld x (Rect.unit (s := S1x1x4096) (k0_off2 k) S1x1x256.size (Gen.k0_off2_inb k)) (ix3 (0 : Fin 1) (0 : Fin 1) j)
      = x (ix3 (0 : Fin 1) (0 : Fin 1) (⟨k.val * 256 + j.val, hlt⟩ : Fin 4096)) := by
  refine congrArg x (funext fun a => Fin.ext ?_)
  have e := k0_off2_eq k
  match a with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * j.val = k.val * 256 + j.val; rw [e]; show 256 * k.val + 1 * j.val = _; omega

/-- The accumulator after `k` trips, at (r, o), is the sum of the first `k` blocks of 256 terms. -/
theorem acc_value (x0 : Vec Ideal S1x256x1024 .f32) (x1 : Vec Ideal S1x4096x1024 .bf16) (x2 : Vec Ideal S1x1x4096 .f32)
    (x3 : Vec Ideal S1x4096x1024 .bf16) (r : Fin 256) (o : Fin 1024) (k : ℕ) (hk : k ≤ k0_t1_loop.trips) :
    accAfter (F := Ideal) x0 x1 x2 x3 k (ix2 r o) = BlockAcc.blockAcc (termN x0 x1 x2 x3 r o) 256 k := by
  induction k with
  | zero => exact pay1_apply _
  | succ k ih =>
    have hk' : k < k0_t1_loop.trips := hk
    have h16 : k < 16 := trips_eq ▸ hk'
    have ha := accAfter_succ (F := Ideal) x0 x1 x2 x3 ⟨k, hk'⟩
    dsimp only at ha
    rw [ha, pay2_apply, ih (Nat.le_of_lt hk'), BlockAcc.blockAcc, Finset.sum_range]
    refine congrArg (BlockAcc.blockAcc (termN x0 x1 x2 x3 r o) 256 k + ·) (Finset.sum_congr rfl fun j _ => ?_)
    have hlt : k * 256 + j.val < 4096 := by have := j.isLt; omega
    unfold termN
    rw [dif_pos hlt]
    unfold term
    rw [bias_lanes x2 ⟨k, hk'⟩ j hlt, weight_rows x3 ⟨k, hk'⟩ j o hlt]
    refine congrArg (fun s => max (s + _) 0 * _) (Finset.sum_congr rfl fun mm _ => ?_)
    rw [weight_rows x1 ⟨k, hk'⟩ j mm hlt]

section

variable (c : Dev nD) (i : grid0.Coords) (arg2 : Memref sig .tc .vmem S1x256x1024 .f32) (harg2 : arg2.IsWhole) (arg3 : Memref sig .tc .vmem S1x4096x1024 .bf16) (harg3 : arg3.IsWhole) (arg4 : Memref sig .tc .vmem S1x1x4096 .f32) (harg4 : arg4.IsWhole) (arg5 : Memref sig .tc .vmem S1x4096x1024 .bf16) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .f32) (harg8 : arg8.IsWhole)

/-- THE TILE'S OUTPUT BLOCK at (u, r, o): the sum over all hidden units of their terms, plus the second bias. -/
theorem tile_value (x0 : Vec Ideal S1x256x1024 .f32) (x1 : Vec Ideal S1x4096x1024 .bf16) (x2 : Vec Ideal S1x1x4096 .f32)
    (x3 : Vec Ideal S1x4096x1024 .bf16) (x4 : Vec Ideal S1x1x1024 .f32) (u : Fin 1) (r : Fin 256) (o : Fin 1024) :
    out0_A_5 (F := Ideal) c i arg2 harg2 arg3 harg3 arg4 harg4 arg5 harg5 arg6 harg6 arg7 harg7 arg8 harg8 x0 x1 x2 x3 x4 (ix3 u r o)
      = (∑ h : Fin 4096, term x0 x1 x2 x3 r o h) + x4 (ix3 (0 : Fin 1) (0 : Fin 1) o) := by
  rw [tile_out, pay3_apply, acc_value x0 x1 x2 x3 r o _ (Nat.le_refl _), trips_eq]
  exact congrArg (· + x4 (ix3 (0 : Fin 1) (0 : Fin 1) o))
    (BlockAcc.blockAcc_all (termN x0 x1 x2 x3 r o) 256 16 4096 rfl (term x0 x1 x2 x3 r o) fun h => dif_pos h.isLt)

end

end Cert.KernelIdeal.Tile

end
-- ==== Proof.RegionEntry.lean ====
/-
  What the kernel region finds in the four arrays that host operations write before it, read at an index over the
  extended reals. The two weight arrays are the launch arrays converted to a narrower float format, which changes no
  value there; the two bias arrays are the launch arrays [8, n] recast as [8, 1, n], and a recast keeps every
  element's row-major position, so the element at (e, 0, k) is the launch array's element at (e, k).
-/
import proofs.«146546_j4939212391171_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.TcCoe Idealize.ShloMosaic.ValueIdx Idealize.SL.Sem

/-- An [a, b] array recast as [a, 1, b] reads, at (i, u, j), the operand at (i, j): the two row-major positions are
    (i · 1 + u) · b + j and i · b + j, and u = 0. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

variable (m : (ℓ : Loc nD τ sig) → Buf (Elt Ideal) ℓ) (c : Dev nD)

/-- The first weight array as the region finds it is the launch array: the conversion changes no value. -/
theorem entry_w1 (i : S8x4096x1024.Idx) : V (F := Ideal) m c main_v0 i = m ((c : Thread nD τ).loc main_arg1) i := by
  have e : (V (F := Ideal) m c main_v0 : S8x4096x1024.Idx → EReal)
      = (truncf .bf16 (m ((c : Thread nD τ).loc main_arg1) : FVec Ideal S8x4096x1024 .f32) bitsLt_bf16_f32 : FVec Ideal S8x4096x1024 .bf16) := by
    dsimp only [Gen.V, Gen.hostOps0]
    after_results <;> rfl
  exact congrFun e i

/-- The second weight array as the region finds it is the launch array: the conversion changes no value. -/
theorem entry_w2 (i : S8x4096x1024.Idx) : V (F := Ideal) m c main_v1 i = m ((c : Thread nD τ).loc main_arg3) i := by
  have e : (V (F := Ideal) m c main_v1 : S8x4096x1024.Idx → EReal)
      = (truncf .bf16 (m ((c : Thread nD τ).loc main_arg3) : FVec Ideal S8x4096x1024 .f32) bitsLt_bf16_f32 : FVec Ideal S8x4096x1024 .bf16) := by
    dsimp only [Gen.V, Gen.hostOps0]
    after_results <;> rfl
  exact congrFun e i

/-- The first bias array as the region finds it, at (e, u, h), is the launch array at (e, h). -/
theorem entry_b1 (e : Fin 8) (u : Fin 1) (h : Fin 4096) :
    V (F := Ideal) m c main_v2 (ix3 e u h) = m ((c : Thread nD τ).loc main_arg2) (ix2 e h) := by
  have e' : (V (F := Ideal) m c main_v2 : S8x1x4096.Idx → EReal)
      = shapeCast S8x1x4096 (m ((c : Thread nD τ).loc main_arg2) : S8x4096.Idx → EReal) shapeCasts_S8x4096_S8x1x4096 := by
    dsimp only [Gen.V, Gen.hostOps0]
    after_results <;> rfl
  exact (congrFun e' _).trans (shapeCast_ab_a1b_apply _ _ e u h)

/-- The second bias array as the region finds it, at (e, u, o), is the launch array at (e, o). -/
theorem entry_b2 (e : Fin 8) (u : Fin 1) (o : Fin 1024) :
    V (F := Ideal) m c main_v3 (ix3 e u o) = m ((c : Thread nD τ).loc main_arg4) (ix2 e o) := by
  have e' : (V (F := Ideal) m c main_v3 : S8x1x1024.Idx → EReal)
      = shapeCast S8x1x1024 (m ((c : Thread nD τ).loc main_arg4) : S8x1024.Idx → EReal) shapeCasts_S8x1024_S8x1x1024 := by
    dsimp only [Gen.V, Gen.hostOps0]
    after_results <;> rfl
  exact (congrFun e' _).trans (shapeCast_ab_a1b_apply _ _ e u o)

end Cert.KernelIdeal.Tile

end
-- ==== Proof.Cover.lean ====
/-
  The result array has shape [8, 4096, 1024] and is written in blocks of shape [1, 256, 1024]: the grid point with
  coordinates (e, ci), e < 8 and ci < 16, owns the block with block index (e, ci, 0), that is expert e, tokens
  256·ci … 256·ci + 255 and all 1024 output features. Every pair (e, ci) is the block index of some point of the
  8 × 16 grid, and an array index (e, c, o) lies in the block with block index (e, c / 256, 0), because
  256·(c / 256) ≤ c < 256·(c / 256) + 256 and o < 1024. Since every point writes its block back, the written blocks
  cover the whole array.
-/
import proofs.«146546_j4939212391171_2_alg».proof.Proof.Gen.KernelIdeal.Frame
import Idealize.ShloMosaic.Lib.Pipeline.Value

noncomputable section

namespace Cert.KernelIdeal.Tile

open Cert.KernelIdeal Cert.KernelIdeal.Gen Idealize.ShloMosaic Idealize.ShloMosaic.TcCoe Idealize.SL.Sem

/-- Every (expert, token-tile) pair is some grid point's block index (decided over the 128 points). -/
theorem point_of_block : ∀ (e : Fin 8) (ci : Fin 16), ∃ t : Fin cfg0.N, win0_5.index t = ![e.val, ci.val, 0] :=
  (by decide +kernel : ∀ (e : Fin 8) (ci : Fin 16), ∃ t : Fin grid0.N, win0_5.index t = ![e.val, ci.val, 0])

/-- An index of the result array is in point `t`'s block iff each coordinate is in the block's range on its axis. -/
theorem mem_block (t : Fin cfg0.N) (i : S8x4096x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v4).slice (win0_5.rect t)).set ↔ _
  rw [View.set_slice_whole, Rect.mem_set_unit]
  exact Iff.rfl

/-- THE COVER: every index (e, c, o) of the result array lies in the block of the point whose block index is
    (e, c / 256, 0), and that point, like every point, writes its block back. -/
theorem blocks_cover : ∀ i : S8x4096x1024.Idx, ∃ t : Fin cfg0.N, (cfg0.win 5).flush t = true ∧ i ∈ ((cfg0.win 5).blk t).view.set := by
  intro i
  have hi0 : (i 0).val < 8 := (i 0).isLt
  have hi1 : (i 1).val < 4096 := (i 1).isLt
  have hi2 : (i 2).val < 1024 := (i 2).isLt
  obtain ⟨t, ht⟩ := point_of_block ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

end Cert.KernelIdeal.Tile

end
-- ==== Proof.Spec.lean ====
/-
  The mathematics of one expert's two-layer perceptron, with no program in sight.

  For experts e < 8, tokens c < 4096, input features m < 1024, hidden units h < 4096 and output features o < 1024,
  over the extended reals,

      hidden(e, c, h) = max (Σ_m x(e, c, m) · w1(e, h, m) + b1(e, h)) 0
      out(e, c, o)    = Σ_h hidden(e, c, h) · w2(e, h, o) + b2(e, o).

  A tile of 256 tokens computes the same sum over h in 16 consecutive blocks of 256 hidden units, adding each
  block's partial product to an accumulator that starts at zero; since addition of extended reals is commutative
  and associative, the accumulator after all 16 blocks is the whole sum (the module on block accumulators). No
  finiteness is needed: nothing is distributed or cancelled.
-/
import Mathlib
import Idealize.ShloMosaic.PureOps.Ideal
import Idealize.ShloMosaic.Lib.ValueIdx

noncomputable section

namespace ExpertMlp

open Idealize.ShloMosaic Idealize.ShloMosaic.ValueIdx

/-- The shape of `x`, `w1`, `w2` and the result: [8, 4096, 1024]. -/
abbrev SA : Shape := ⟨3, ![8, 4096, 1024]⟩
/-- The shape of the first bias: [8, 4096]. -/
abbrev SB1 : Shape := ⟨2, ![8, 4096]⟩
/-- The shape of the second bias: [8, 1024]. -/
abbrev SB2 : Shape := ⟨2, ![8, 1024]⟩

/-- One hidden unit's activation for one token of one expert: the rectified affine form. -/
def hidden (x w1 : SA.Idx → EReal) (b1 : SB1.Idx → EReal) (e : Fin 8) (c h : Fin 4096) : EReal :=
  max ((∑ m : Fin 1024, x (ix3 e c m) * w1 (ix3 e h m)) + b1 (ix2 e h)) 0

/-- The perceptron's output at coordinates (e, c, o). -/
def outAt (x w1 : SA.Idx → EReal) (b1 : SB1.Idx → EReal) (w2 : SA.Idx → EReal) (b2 : SB2.Idx → EReal)
    (e : Fin 8) (c : Fin 4096) (o : Fin 1024) : EReal :=
  (∑ h : Fin 4096, hidden x w1 b1 e c h * w2 (ix3 e h o)) + b2 (ix2 e o)

/-- The perceptron's output as one function of the five argument arrays, index by index. -/
def out (x w1 : SA.Idx → EReal) (b1 : SB1.Idx → EReal) (w2 : SA.Idx → EReal) (b2 : SB2.Idx → EReal) : SA.Idx → EReal :=
  fun i => outAt x w1 b1 w2 b2 (i 0) (i 1) (i 2)

theorem out_ix3 (x w1 : SA.Idx → EReal) (b1 : SB1.Idx → EReal) (w2 : SA.Idx → EReal) (b2 : SB2.Idx → EReal)
    (e : Fin 8) (c : Fin 4096) (o : Fin 1024) : out x w1 b1 w2 b2 (ix3 e c o) = outAt x w1 b1 w2 b2 e c o := rfl

end ExpertMlp

end
-- ==== Proof.ResultArray.lean ====
/-
  From tiles to the whole result array.

  Grid point t = (e, ci) stages token rows 256 ci … 256 ci + 255 of expert e's activations, all of expert e's two
  weight matrices and two bias rows, and writes back rows 256 ci … 256 ci + 255 of expert e's result. Reading each
  staged block where the result's block says — the activations at row 256 ci + r, the weights and biases at expert
  e — turns the tile's value into the perceptron's output at (e, 256 ci + r, o): what the point writes back is its
  block of ONE whole-array function, the perceptron of the argument arrays. The 8 × 16 blocks tile the array, so
  after the run the array is that function.
-/
import proofs.«146546_j4939212391171_2_alg».proof.Proof.Gen.KernelIdeal.Value
import proofs.«146546_j4939212391171_2_alg».proof.Proof.TileValue
import proofs.«146546_j4939212391171_2_alg».proof.Proof.RegionEntry
import proofs.«146546_j4939212391171_2_alg».proof.Proof.Cover
import proofs.«146546_j4939212391171_2_alg».proof.Proof.Spec

set_option maxRecDepth 16384

noncomputable section

namespace Cert.KernelIdeal.Tile

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The perceptron of the five argument arrays as the launch memory holds them on core `c`. -/
def perceptron (c : Dev nD) : S8x4096x1024.Idx → EReal :=
  ExpertMlp.out (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the grid: the activations' block moves with the result's block; the weights' and
    biases' blocks follow the expert coordinate alone; the result's block indices stay in their ranges. -/
theorem index_facts : ∀ t : Fin cfg0.N,
    (win0_0.index t (0 : Fin 3) = win0_5.index t (0 : Fin 3) ∧ win0_0.index t (1 : Fin 3) = win0_5.index t (1 : Fin 3) ∧ win0_0.index t (2 : Fin 3) = 0)
    ∧ (win0_1.index t (0 : Fin 3) = win0_5.index t (0 : Fin 3) ∧ win0_1.index t (1 : Fin 3) = 0 ∧ win0_1.index t (2 : Fin 3) = 0)
    ∧ (win0_2.index t (0 : Fin 3) = win0_5.index t (0 : Fin 3) ∧ win0_2.index t (1 : Fin 3) = 0 ∧ win0_2.index t (2 : Fin 3) = 0)
    ∧ (win0_3.index t (0 : Fin 3) = win0_5.index t (0 : Fin 3) ∧ win0_3.index t (1 : Fin 3) = 0 ∧ win0_3.index t (2 : Fin 3) = 0)
    ∧ (win0_4.index t (0 : Fin 3) = win0_5.index t (0 : Fin 3) ∧ win0_4.index t (1 : Fin 3) = 0 ∧ win0_4.index t (2 : Fin 3) = 0)
    ∧ (win0_5.index t (0 : Fin 3) ≤ 7 ∧ win0_5.index t (1 : Fin 3) ≤ 15 ∧ win0_5.index t (2 : Fin 3) = 0) :=
  (by decide +kernel : ∀ t : Fin grid0.N, _)

section Blocks

variable (c : Dev nD) (t : Fin cfg0.N) (e : Fin 8) (he : e.val = win0_5.index t (0 : Fin 3))
include he

/-- The staged activations at (0, r, k): the argument at expert `e`, token row `256 ci + r`. -/
theorem act_block (r : Fin 256) (k : Fin 1024) (cc : Fin 4096) (hc : cc.val = win0_5.index t (1 : Fin 3) * 256 + r.val) :
    iblk m c 0 t (ix3 (0 : Fin 1) r k) = m ((c : Thread nD τ).loc main_arg0) (ix3 e cc k) := by
  obtain ⟨⟨a0, a1, a2⟩, -⟩ := index_facts t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = e.val; omega
  | ⟨1, _⟩ => show win0_0.index t (1 : Fin 3) * 256 + 1 * r.val = cc.val; omega
  | ⟨2, _⟩ => show win0_0.index t (2 : Fin 3) * 1024 + 1 * k.val = k.val; omega

/-- The staged first weights at (0, h, k): the argument at expert `e`. -/
theorem w1_block (h : Fin 4096) (k : Fin 1024) :
    iblk m c 1 t (ix3 (0 : Fin 1) h k) = m ((c : Thread nD τ).loc main_arg1) (ix3 e h k) := by
  obtain ⟨-, ⟨a0, a1, a2⟩, -⟩ := index_facts t
  show V m c main_v0 (((cfg0.win 1).blk t).view.emb (ix3 (0 : Fin 1) h k)) = _
  rw [entry_w1]
  refine congrArg _ (funext fun a => Fin.ext ?_)
  match a with
  | ⟨0, _⟩ => show win0_1.index t (0 : Fin 3) * 1 + 1 * 0 = e.val; omega
  | ⟨1, _⟩ => show win0_1.index t (1 : Fin 3) * 4096 + 1 * h.val = h.val; omega
  | ⟨2, _⟩ => show win0_1.index t (2 : Fin 3) * 1024 + 1 * k.val = k.val; omega

/-- The staged first bias at (0, 0, h): the argument at expert `e`. -/
theorem b1_block (h : Fin 4096) :
    iblk m c 2 t (ix3 (0 : Fin 1) (0 : Fin 1) h) = m ((c : Thread nD τ).loc main_arg2) (ix2 e h) := by
  obtain ⟨-, -, ⟨a0, a1, a2⟩, -⟩ := index_facts t
  show V m c main_v2 (((cfg0.win 2).blk t).view.emb (ix3 (0 : Fin 1) (0 : Fin 1) h)) = _
  have hi : ((cfg0.win 2).blk t).view.emb (ix3 (0 : Fin 1) (0 : Fin 1) h) = ix3 e (0 : Fin 1) h := by
    funext a; apply Fin.ext
    match a with
    | ⟨0, _⟩ => show win0_2.index t (0 : Fin 3) * 1 + 1 * 0 = e.val; omega
    | ⟨1, _⟩ => show win0_2.index t (1 : Fin 3) * 1 + 1 * 0 = 0; omega
    | ⟨2, _⟩ => show win0_2.index t (2 : Fin 3) * 4096 + 1 * h.val = h.val; omega
  rw [hi, entry_b1]

/-- The staged second weights at (0, h, o): the argument at expert `e`. -/
theorem w2_block (h : Fin 4096) (o : Fin 1024) :
    iblk m c 3 t (ix3 (0 : Fin 1) h o) = m ((c : Thread nD τ).loc main_arg3) (ix3 e h o) := by
  obtain ⟨-, -, -, ⟨a0, a1, a2⟩, -⟩ := index_facts t
  show V m c main_v1 (((cfg0.win 3).blk t).view.emb (ix3 (0 : Fin 1) h o)) = _
  rw [entry_w2]
  refine congrArg _ (funext fun a => Fin.ext ?_)
  match a with
  | ⟨0, _⟩ => show win0_3.index t (0 : Fin 3) * 1 + 1 * 0 = e.val; omega
  | ⟨1, _⟩ => show win0_3.index t (1 : Fin 3) * 4096 + 1 * h.val = h.val; omega
  | ⟨2, _⟩ => show win0_3.index t (2 : Fin 3) * 1024 + 1 * o.val = o.val; omega

/-- The staged second bias at (0, 0, o): the argument at expert `e`. -/
theorem b2_block (o : Fin 1024) :
    iblk m c 4 t (ix3 (0 : Fin 1) (0 : Fin 1) o) = m ((c : Thread nD τ).loc main_arg4) (ix2 e o) := by
  obtain ⟨-, -, -, -, ⟨a0, a1, a2⟩, -⟩ := index_facts t
  show V m c main_v3 (((cfg0.win 4).blk t).view.emb (ix3 (0 : Fin 1) (0 : Fin 1) o)) = _
  have hi : ((cfg0.win 4).blk t).view.emb (ix3 (0 : Fin 1) (0 : Fin 1) o) = ix3 e (0 : Fin 1) o := by
    funext a; apply Fin.ext
    match a with
    | ⟨0, _⟩ => show win0_4.index t (0 : Fin 3) * 1 + 1 * 0 = e.val; omega
    | ⟨1, _⟩ => show win0_4.index t (1 : Fin 3) * 1 + 1 * 0 = 0; omega
    | ⟨2, _⟩ => show win0_4.index t (2 : Fin 3) * 1024 + 1 * o.val = o.val; omega
  rw [hi, entry_b2]

end Blocks

/-- WHAT POINT `t` WRITES BACK is block `t` of the perceptron of the argument arrays. -/
theorem flushed_eq (c : Dev nD) (t : Fin cfg0.N) :
    (dats m 0 c).flushed 5 t = ((cfg0.win 5).blk t).view.read (Elt Ideal) (perceptron m c) := by
  rw [Value.flushed5_A]
  obtain ⟨-, -, -, -, -, ⟨r0, r1, r2⟩⟩ := index_facts t
  refine funext fun (j : S1x256x1024.Idx) => ?_
  obtain ⟨u, r, o, rfl⟩ : ∃ (u : Fin 1) (r : Fin 256) (o : Fin 1024), j = ix3 u r o := ⟨j 0, j 1, j 2, eq_ix3 j⟩
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (ix3 u r o)
    = perceptron m c (((cfg0.win 5).blk t).view.emb (ix3 u r o))
  refine (tile_value c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) u r o).trans ?_
  have hr : r.val < 256 := r.isLt
  have hu : u.val = 0 := by have := u.isLt; omega
  let e : Fin 8 := ⟨win0_5.index t (0 : Fin 3), by omega⟩
  let cc : Fin 4096 := ⟨win0_5.index t (1 : Fin 3) * 256 + r.val, by omega⟩
  have hi : ((cfg0.win 5).blk t).view.emb (ix3 u r o) = ix3 e cc o := by
    funext a; apply Fin.ext
    match a with
    | ⟨0, _⟩ => show win0_5.index t (0 : Fin 3) * 1 + 1 * u.val = win0_5.index t (0 : Fin 3); omega
    | ⟨1, _⟩ => show win0_5.index t (1 : Fin 3) * 256 + 1 * r.val = win0_5.index t (1 : Fin 3) * 256 + r.val; omega
    | ⟨2, _⟩ => show win0_5.index t (2 : Fin 3) * 1024 + 1 * o.val = o.val; omega
  rw [hi]
  unfold perceptron
  rw [ExpertMlp.out_ix3]
  unfold ExpertMlp.outAt ExpertMlp.hidden term
  refine congrArg₂ (· + ·) (Finset.sum_congr rfl fun h _ => ?_) (b2_block m c t e rfl o)
  refine congrArg₂ (· * ·) (congrArg (max · 0) (congrArg₂ (· + ·) (Finset.sum_congr rfl fun k _ => ?_) (b1_block m c t e rfl h)))
    (w2_block m c t e rfl h o)
  exact congrArg₂ (· * ·) (act_block m c t e rfl r k cc rfl) (w1_block m c t e rfl h k)

/-- THE RESULT ARRAY after the run is the perceptron of the argument arrays. -/
theorem final (c : Dev nD) : (dats m 0 c).arrAt 5 cfg0.N = perceptron m c :=
  (dats m 0 c).arrAt_eq_of_cover 5 (perceptron m c) (fun t _ => flushed_eq m c t) blocks_cover

/-- The kernel's run with its result array named: the perceptron of the argument arrays, which end unchanged. -/
theorem run : θ_run defs (onTc (τ := τ) (main (F := Ideal))) ⟨m, fun _ => 0, ρ⟩ fun r => ∀ c : Dev nD,
      r.2.mem ((c : Thread nD τ).loc main_v4) = perceptron m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Tile

end
-- ==== Proof.ReferenceValue.lean ====
/-
  The reference program computes, for expert e, token c and output feature o, a first contraction
  Σ_m x(e, c, m) · w1(e, h, m) over the 1024 input features, adds the first bias b1(e, h) (broadcast along the
  token axis), takes the maximum with the zero constant, contracts the result with w2(e, h, o) over the 4096 hidden
  units, and adds the second bias b2(e, o) (broadcast along the token axis). Read index by index, each operation's
  element is one element of each operand at an index that is a fixed rearrangement of the coordinates (e, c, o), so
  the result at (e, c, o) is literally max (Σ_m x · w1 + b1) 0 summed against w2, plus b2: the specification's
  `ExpertMlp.out`. No arithmetic law is used beyond the f32 zero word being the extended real 0.
-/
import proofs.«146546_j4939212391171_2_alg».proof.Proof.Gen.ReferenceIdeal.Read
import proofs.«146546_j4939212391171_2_alg».proof.Proof.Spec

noncomputable section

namespace Cert.ReferenceIdeal.RefValue

open Cert.ReferenceIdeal Cert.ReferenceIdeal.Read Idealize.ShloMosaic Idealize.ShloMosaic.ValueIdx

/-! ## The operand indices, by coordinates -/

/-- The first contraction reads x at (e, c, m). -/
theorem lidx_v0 (e : Fin 8) (c h : Fin 4096) (m : Fin 1024) :
    lidx_main_v0 (ix3 e c h) m = ix3 e c m := by
  funext a; match a with | ⟨0, _⟩ => rfl | ⟨1, _⟩ => rfl | ⟨2, _⟩ => rfl

/-- The first contraction reads w1 at (e, h, m). -/
theorem ridx_v0 (e : Fin 8) (c h : Fin 4096) (m : Fin 1024) :
    ridx_main_v0 (ix3 e c h) m = ix3 e h m := by
  funext a; match a with | ⟨0, _⟩ => rfl | ⟨1, _⟩ => rfl | ⟨2, _⟩ => rfl

/-- The two broadcasts of the first bias read it at (e, h). -/
theorem idx_v1_v2 (e : Fin 8) (c h : Fin 4096) :
    idx_main_v1 (idx_main_v2 (ix3 e c h)) = ix2 e h := by
  funext a; match a with | ⟨0, _⟩ => rfl | ⟨1, _⟩ => rfl

/-- The second contraction reads the hidden layer at (e, c, h). -/
theorem lidx_v5 (e : Fin 8) (c : Fin 4096) (o : Fin 1024) (h : Fin 4096) :
    lidx_main_v5 (ix3 e c o) h = ix3 e c h := by
  funext a; match a with | ⟨0, _⟩ => rfl | ⟨1, _⟩ => rfl | ⟨2, _⟩ => rfl

/-- The second contraction reads w2 at (e, h, o). -/
theorem ridx_v5 (e : Fin 8) (c : Fin 4096) (o : Fin 1024) (h : Fin 4096) :
    ridx_main_v5 (ix3 e c o) h = ix3 e h o := by
  funext a; match a with | ⟨0, _⟩ => rfl | ⟨1, _⟩ => rfl | ⟨2, _⟩ => rfl

/-- The two broadcasts of the second bias read it at (e, o). -/
theorem idx_v6_v7 (e : Fin 8) (c : Fin 4096) (o : Fin 1024) :
    idx_main_v6 (idx_main_v7 (ix3 e c o)) = ix2 e o := by
  funext a; match a with | ⟨0, _⟩ => rfl | ⟨1, _⟩ => rfl

/-! ## The hidden layer, then the result -/

/-- The rectified first layer at (e, c, h) is the specification's hidden activation. -/
theorem hidden_at (x0 x1 : (⟨S8x4096x1024, .f32⟩ : BufTy).Contents (Elt Ideal))
    (x2 : (⟨S8x4096, .f32⟩ : BufTy).Contents (Elt Ideal)) (e : Fin 8) (c h : Fin 4096) :
    val_main_v4 (F := Ideal) x0 x1 x2 (ix3 e c h) = ExpertMlp.hidden x0 x1 x2 e c h := by
  rw [val_main_v4_apply, val_main_v3_apply, val_main_v0_apply, val_main_v2_apply, val_main_v1_apply,
    val_main_call0_v0_apply, val_main_call0_cst_apply]
  simp only [lidx_v0, ridx_v0, idx_v1_v2, Ideal.addf_def, Ideal.maximumf_def, Ideal.ofBits_def,
    Ideal.ofBits_zero_f32]
  rfl

/-- The reference's result is the specification function. -/
theorem reference_is_out
    (x0 x1 : (⟨S8x4096x1024, .f32⟩ : BufTy).Contents (Elt Ideal)) (x2 : (⟨S8x4096, .f32⟩ : BufTy).Contents (Elt Ideal))
    (x3 : (⟨S8x4096x1024, .f32⟩ : BufTy).Contents (Elt Ideal)) (x4 : (⟨S8x1024, .f32⟩ : BufTy).Contents (Elt Ideal)) :
    val_main_v8 (F := Ideal) x0 x1 x2 x3 x4 = ExpertMlp.out x0 x1 x2 x3 x4 := by
  funext i
  obtain ⟨e, c, o, rfl⟩ : ∃ (e : Fin 8) (c : Fin 4096) (o : Fin 1024), i = ix3 e c o := ⟨i 0, i 1, i 2, eq_ix3 i⟩
  rw [ExpertMlp.out_ix3, val_main_v8_apply, val_main_v5_apply, val_main_v7_apply, val_main_v6_apply]
  simp only [lidx_v5, ridx_v5, idx_v6_v7, hidden_at, Ideal.addf_def]
  rfl

end Cert.ReferenceIdeal.RefValue

end
-- ==== Proof.lean ====
/-
  A per-expert two-layer perceptron, tiled, against the same perceptron written with two whole contractions.

  For eight experts e, 4096 tokens c, 1024 input features m, 4096 hidden units h and 1024 output features o, both
  programs compute, over the extended reals,

      out(e, c, o) = Σ_h max (Σ_m x(e, c, m) · w1(e, h, m) + b1(e, h)) 0 · w2(e, h, o) + b2(e, o).

  The reference does it with one contraction over m, a rectification and one contraction over all h. The kernel
  works on tiles of 256 tokens of one expert; for each tile it walks the hidden axis in sixteen blocks of 256 units,
  adding each block's partial second product to an accumulator that starts at zero, and finally adds the second
  bias. The changes of float format on the way are the identity on the extended reals, and a product into a zero
  accumulator is the plain sum, so the only law between the two sides is that a sum over 4096 consecutive positions
  is the sum of its sixteen consecutive blocks of 256 — commutativity and associativity of addition, which hold
  for the infinities too: the inputs' finiteness is never used.

  The modules: `Spec` states the perceptron; `LibBlockAcc` proves the law about blocks and `LibWholeStore` that a
  buffer reads as the last store that covered it; `Accumulator` reads, for any float values,
  what a tile's body leaves in its output block as a recursion over the sixteen trips; `Payloads` reads the three
  stored values at an index; `TileValue` turns the recursion into the sum over all hidden units; `RegionEntry`
  reads the arrays the host prepares (the weights' change of format, the biases' added unit axis); `Cover` shows that
  the output blocks tile the result; `ResultArray` identifies what each grid point writes back with its block of the
  perceptron of the argument arrays and concludes for the whole array; `ReferenceValue` shows the reference's
  result is the same function. The kernel is its own idealization (no rewrite was applied), and the three frames
  are the generated runs.
-/
import proofs.«146546_j4939212391171_2_alg».proof.Defs
import proofs.«146546_j4939212391171_2_alg».proof.Proof.Gen.Kernel
import proofs.«146546_j4939212391171_2_alg».proof.Proof.Gen.Kernel.Skeleton
import proofs.«146546_j4939212391171_2_alg».proof.Proof.Gen.Kernel.Loops
import proofs.«146546_j4939212391171_2_alg».proof.Proof.Gen.Kernel.Launch
import proofs.«146546_j4939212391171_2_alg».proof.Proof.Gen.Kernel.Points
import proofs.«146546_j4939212391171_2_alg».proof.Proof.Gen.Kernel.Frame
import proofs.«146546_j4939212391171_2_alg».proof.Proof.Gen.KernelIdeal
import proofs.«146546_j4939212391171_2_alg».proof.Proof.Gen.KernelIdeal.Skeleton
import proofs.«146546_j4939212391171_2_alg».proof.Proof.Gen.KernelIdeal.Loops
import proofs.«146546_j4939212391171_2_alg».proof.Proof.Gen.KernelIdeal.Launch
import proofs.«146546_j4939212391171_2_alg».proof.Proof.Gen.KernelIdeal.Points
import proofs.«146546_j4939212391171_2_alg».proof.Proof.Gen.KernelIdeal.Frame
import proofs.«146546_j4939212391171_2_alg».proof.Proof.Gen.ReferenceIdeal
import proofs.«146546_j4939212391171_2_alg».proof.Proof.Gen.Pre_finite_inputs
import proofs.«146546_j4939212391171_2_alg».proof.Proof.Gen.KernelIdeal.Value
import proofs.«146546_j4939212391171_2_alg».proof.Proof.Gen.ReferenceIdeal.Run
import proofs.«146546_j4939212391171_2_alg».proof.Proof.Gen.ReferenceIdeal.Read
import proofs.«146546_j4939212391171_2_alg».proof.Proof.ResultArray
import proofs.«146546_j4939212391171_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the perceptron of its argument arrays, and so does the
    reference's, from a memory that agrees on the arguments. -/
theorem algebraic : Cert.algebraic_KernelIdeal_ReferenceIdeal := by
  intro m ρ m' ρ' _ hagree
  refine ⟨fun c => Cert.KernelIdeal.Tile.perceptron m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_is_out,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
